-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4096 : Shape := ⟨3, ![8, 16, 4096]⟩
abbrev S16384x4096 : Shape := ⟨2, ![16384, 4096]⟩
abbrev S_ : Shape := ⟨0, ![]⟩
abbrev S16384 : Shape := ⟨1, ![16384]⟩

class Facts : Prop where
  bcast_S_S8x16x4096 : S_.BroadcastsInDim S8x16x4096 (![] : Fin 0 → Fin S8x16x4096.rank)
  reducesTo_S8x16x4096_S_d0_1_2 : S8x16x4096.ReducesTo [0, 1, 2] S_
  h_S_ : 0 < S_.numel
  reducesTo_S_S_d : S_.ReducesTo [] S_
  bcast_S_S16384 : S_.BroadcastsInDim S16384 (![] : Fin 0 → Fin S16384.rank)
  reducesTo_S16384_S_d0 : S16384.ReducesTo [0] S_

variable [Facts]

def fn_part1 {F : FTy → Type} [FloatOps F] (main_v11 : IVec S_ 1) (main_v15 : IVec S_ 1) : IVec S_ 1 :=
  let main_v16 : IVec S_ 1 := andi main_v11 main_v15
  main_v16

def fn {F : FTy → Type} [FloatOps F] (main_arg0 : FVec F S8x16x4096 .f32) (main_arg1 : IVec S16384x4096 32) (main_arg2 : FVec F S_ .f32) (main_arg3 : FVec F S_ .f32) (main_arg4 : FVec F S16384 .f32) : IVec S_ 1 :=
  let main_v0 : FVec F S8x16x4096 .f32 := Host.absf main_arg0
  let main_cst : FVec F S_ .f32 := constant S_ .f32 0x7F800000#32
  let main_v1 : FVec F S8x16x4096 .f32 := broadcastInDim S8x16x4096 ![] bcast_S_S8x16x4096 main_cst
  let main_v2 : IVec S8x16x4096 1 := cmpf .olt main_v0 main_v1
  let main_c : IVec S_ 1 := constantI S_ 1 1#1
  let main_v3 : IVec S_ 1 := (fun x v => Host.reduce IntOp.andi x v reducesTo_S8x16x4096_S_d0_1_2 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg3
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  let main_v12 : FVec F S16384 .f32 := Host.absf main_arg4
  let main_cst_4 : FVec F S_ .f32 := constant S_ .f32 0x7F800000#32
  let main_v13 : FVec F S16384 .f32 := broadcastInDim S16384 ![] bcast_S_S16384 main_cst_4
  let main_v14 : IVec S16384 1 := cmpf .olt main_v12 main_v13
  let main_c_5 : IVec S_ 1 := constantI S_ 1 1#1
  let main_v15 : IVec S_ 1 := (fun x v => Host.reduce IntOp.andi x v reducesTo_S16384_S_d0 h_S_) main_v14 main_c_5
  fn_part1 (F := F) main_v11 main_v15
-- ==== Kernel.lean ====
abbrev S8x16x4096 : Shape := ⟨3, ![8, 16, 4096]⟩
abbrev S16384x4096 : Shape := ⟨2, ![16384, 4096]⟩
abbrev S_ : Shape := ⟨0, ![]⟩
abbrev S16384 : Shape := ⟨1, ![16384]⟩
abbrev S128x4096 : Shape := ⟨2, ![128, 4096]⟩
abbrev S1x1 : Shape := ⟨2, ![1, 1]⟩
abbrev S1x16384 : Shape := ⟨2, ![1, 16384]⟩
abbrev S128x16384 : Shape := ⟨2, ![128, 16384]⟩
abbrev S512x4096 : Shape := ⟨2, ![512, 4096]⟩
abbrev S1x512 : Shape := ⟨2, ![1, 512]⟩
abbrev S128x512 : Shape := ⟨2, ![128, 512]⟩
abbrev S8x16x16384 : Shape := ⟨3, ![8, 16, 16384]⟩

abbrev nBuf : Space → Nat
  | .hbm => 11
  | .vmem => 9
  | .smem => 0
  | _ => 0

abbrev bufTy : (tb : Table) → Fin (tcTables nBuf tb) → BufTy
  | .hbm, ⟨0, _⟩ => ⟨S8x16x4096, .f32⟩
  | .hbm, ⟨1, _⟩ => ⟨S16384x4096, .i32⟩
  | .hbm, ⟨2, _⟩ => ⟨S_, .f32⟩
  | .hbm, ⟨3, _⟩ => ⟨S_, .f32⟩
  | .hbm, ⟨4, _⟩ => ⟨S16384, .f32⟩
  | .hbm, ⟨5, _⟩ => ⟨S128x4096, .f32⟩
  | .hbm, ⟨6, _⟩ => ⟨S1x1, .f32⟩
  | .hbm, ⟨7, _⟩ => ⟨S1x1, .f32⟩
  | .hbm, ⟨8, _⟩ => ⟨S1x16384, .f32⟩
  | .hbm, ⟨9, _⟩ => ⟨S128x16384, .f32⟩
  | .hbm, ⟨10, _⟩ => ⟨S8x16x16384, .f32⟩
  | .local _ .vmem, ⟨0, _⟩ => ⟨S128x4096, .f32⟩
  | .local _ .vmem, ⟨1, _⟩ => ⟨S512x4096, .i32⟩
  | .local _ .vmem, ⟨2, _⟩ => ⟨S512x4096, .i32⟩
  | .local _ .vmem, ⟨3, _⟩ => ⟨S1x1, .f32⟩
  | .local _ .vmem, ⟨4, _⟩ => ⟨S1x1, .f32⟩
  | .local _ .vmem, ⟨5, _⟩ => ⟨S1x512, .f32⟩
  | .local _ .vmem, ⟨6, _⟩ => ⟨S1x512, .f32⟩
  | .local _ .vmem, ⟨7, _⟩ => ⟨S128x512, .f32⟩
  | .local _ .vmem, ⟨8, _⟩ => ⟨S128x512, .f32⟩
  | _, _ => ⟨S8x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x16x4096_S128x4096 : S8x16x4096.ShapeCasts S128x4096
  shapeCasts_S_S1x1 : S_.ShapeCasts S1x1
  shapeCasts_S16384_S1x16384 : S16384.ShapeCasts S1x16384
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  shapeCasts_S128x16384_S8x16x16384 : S128x16384.ShapeCasts S8x16x16384
  dot_S128x4096_S512x4096_S128x512_1_1_0_0_n_n_wf : DotDims.WF S128x4096 S512x4096 S128x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .f32 = 32 ∨ (Rect.block (s := S128x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .i32 = 32 ∨ (Rect.block (s := S16384x4096) S512x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x16384.size a
  hwx0_4 : ∀ i : grid0.Coords, EltTy.bits .f32 = 32 ∨ (Rect.block (s := S1x16384) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x16384.size a
  hwx0_5 : ∀ i : grid0.Coords, EltTy.bits .f32 = 32 ∨ (Rect.block (s := S128x16384) S128x512.size (cc0_transform_5 i) (hinb0_5 i)).WholeWords (EltTy.packing .f32)

variable [Facts₀]

def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf

abbrev win0_0 : Pipeline.Window sig grid0 :=
  Pipeline.Window.ofSpec (Memref.whole main_v0) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16x4096 : Shape := ⟨3, ![8, 16, 4096]⟩
abbrev S16384x4096 : Shape := ⟨2, ![16384, 4096]⟩
abbrev S_ : Shape := ⟨0, ![]⟩
abbrev S16384 : Shape := ⟨1, ![16384]⟩
abbrev S8x16x16384 : Shape := ⟨3, ![8, 16, 16384]⟩
abbrev S1x1x16384 : Shape := ⟨3, ![1, 1, 16384]⟩

abbrev nBuf : Space → Nat
  | .hbm => 14
  | .vmem => 0
  | .smem => 0
  | _ => 0

abbrev bufTy : (tb : Table) → Fin (tcTables nBuf tb) → BufTy
  | .hbm, ⟨0, _⟩ => ⟨S8x16x4096, .f32⟩
  | .hbm, ⟨1, _⟩ => ⟨S16384x4096, .i32⟩
  | .hbm, ⟨2, _⟩ => ⟨S_, .f32⟩
  | .hbm, ⟨3, _⟩ => ⟨S_, .f32⟩
  | .hbm, ⟨4, _⟩ => ⟨S16384, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S8x16x16384, .f32⟩
  | .hbm, ⟨11, _⟩ => ⟨S1x1x16384, .f32⟩
  | .hbm, ⟨12, _⟩ => ⟨S8x16x16384, .f32⟩
  | .hbm, ⟨13, _⟩ => ⟨S8x16x16384, .f32⟩
  | _, _ => ⟨S8x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S16384_S1x1x16384_2 : S16384.BroadcastsInDim S1x1x16384 (![2] : Fin 1 → Fin S1x1x16384.rank)
  bcast_S1x1x16384_S8x16x16384_0_1_2 : S1x1x16384.BroadcastsInDim S8x16x16384 (![0, 1, 2] : Fin 3 → Fin S8x16x16384.rank)
  dot_S8x16x4096_S16384x4096_S8x16x16384_2_1_01_0_n_n_wf : DotDims.WF S8x16x4096 S16384x4096 S8x16x16384 [2] [1] [0, 1] [0] [] []

variable [Facts₀]

def dot_S8x16x4096_S16384x4096_S8x16x16384_2_1_01_0_n_n : DotDims S8x16x4096 S16384x4096 S8x16x16384 where
  lhsContracting := [2]
  rhsContracting := [1]
  lhsNonContracting := [0, 1]
  rhsNonContracting := [0]
  lhsBatch := []
  rhsBatch := []
  wf := dot_S8x16x4096_S16384x4096_S8x16x16384_2_1_01_0_n_n_wf

class Facts : Prop extends Facts₀ where

variable [Facts]
-- ==== Proof.Spec.lean ====
/-
  A linear layer over weights stored as integers.  Each weight is kept as a 32-bit integer `q`; it stands for the
  real number `(q − z) · s`, with `z` the zero point and `s` the scale, one pair for the whole matrix.  The layer
  sends a token `x ∈ ℝ^4096` to the vector whose entry `o` is `Σ_k x_k · ((q_{o,k} − z) · s) + b_o`.

  The layer is stated here twice over the extended reals, index by index:
  * `layer`: over the arrays as they are given — tokens as an [8, 16, 4096] array, weights [16384, 4096], the
    scale and the zero point as rank-0 arrays, the bias a vector of 16384 entries —, the result [8, 16, 16384];
  * `rows`: over the same data laid out as matrices — the 128 tokens as the rows of a [128, 4096] matrix, scale and
    zero point as [1, 1] matrices, the bias as one row [1, 16384] —, the result a [128, 16384] matrix.
  `layer_of_rows` joins them: token (a, b) is row 16·a + b, and re-laying an array out keeps every entry, so the
  row form of the re-laid data, laid out again as [8, 16, 16384], is the layer.  No property of the numbers is used:
  the two sides are the same sum of the same products, entry by entry, so nothing here needs the data to be finite.
-/
import Idealize.ShloMosaic.PureOps.Ideal
import Idealize.ShloMosaic.Lib.ValueIdx
import Idealize.ShloMosaic.Lib.ValueLayout
import Idealize.ShloMosaic.Lib.Pipeline.Value

noncomputable section

namespace Cert.QLinear

open Idealize.ShloMosaic Idealize.ShloMosaic.ValueIdx

/-- The real number a stored weight stands for: the integer read as a real, less the zero point, times the scale. -/
def deq (q : BitVec 32) (z s : EReal) : EReal := ((FloatOps.sitofp (F := Ideal) .f32 q : Ideal .f32) - z) * s

/-- The layer on matrices: entry (r, o) is the product of token row `r` with the dequantized weight row `o`, summed
    over the 4096 features, plus the bias at column `o`. -/
def rows (X : (⟨2, ![128, 4096]⟩ : Shape).Idx → EReal) (W : (⟨2, ![16384, 4096]⟩ : Shape).Idx → BitVec 32)
    (S Z : (⟨2, ![1, 1]⟩ : Shape).Idx → EReal) (B : (⟨2, ![1, 16384]⟩ : Shape).Idx → EReal) :
    (⟨2, ![128, 16384]⟩ : Shape).Idx → EReal :=
  fun j => (∑ k : Fin 4096, X (ix2 (j 0) k) * deq (W (ix2 (j 1) k)) (Z (ix2 (0 : Fin 1) (0 : Fin 1))) (S (ix2 (0 : Fin 1) (0 : Fin 1))))
    + B (ix2 (0 : Fin 1) (j 1))

/-- The layer on the arrays as given: entry (a, b, o) from token (a, b), weight row `o` and bias entry `o`. -/
def layer (x : (⟨3, ![8, 16, 4096]⟩ : Shape).Idx → EReal) (w : (⟨2, ![16384, 4096]⟩ : Shape).Idx → BitVec 32)
    (s z : (⟨0, ![]⟩ : Shape).Idx → EReal) (b : (⟨1, ![16384]⟩ : Shape).Idx → EReal) :
    (⟨3, ![8, 16, 16384]⟩ : Shape).Idx → EReal :=
  fun i => (∑ k : Fin 4096, x (ix3 (i 0) (i 1) k) * deq (w (ix2 (i 2) k)) (z ix0) (s ix0)) + b (ix1 (i 2))

/-- A rank-0 array laid out as a [1, 1] matrix keeps its one entry. -/
theorem scalar_as_matrix (s : (⟨0, ![]⟩ : Shape).Idx → EReal) (h : (⟨0, ![]⟩ : Shape).ShapeCasts ⟨2, ![1, 1]⟩) :
    shapeCast ⟨2, ![1, 1]⟩ s h (ix2 (0 : Fin 1) (0 : Fin 1)) = s ix0 :=
  shapeCast_apply s h _ _ (by
    have h1 := ((⟨0, ![]⟩ : Shape).rowMajor ix0).isLt
    rw [Shape.rowMajor_val_two]
    show _ = 0 * 1 + 0
    have e : (⟨0, ![]⟩ : Shape).numel = 1 := by decide
    omega)

/-- Token (a, b) of the [8, 16, 4096] array is row 16·a + b of the [128, 4096] matrix. -/
theorem tokens_as_rows (x : (⟨3, ![8, 16, 4096]⟩ : Shape).Idx → EReal)
    (h : (⟨3, ![8, 16, 4096]⟩ : Shape).ShapeCasts ⟨2, ![128, 4096]⟩) (a : Fin 8) (b : Fin 16) (r : Fin 128)
    (hr : r.val = 16 * a.val + b.val) (k : Fin 4096) :
    shapeCast ⟨2, ![128, 4096]⟩ x h (ix2 r k) = x (ix3 a b k) :=
  shapeCast_apply x h _ _ (by
    rw [Shape.rowMajor_val_two, Shape.rowMajor_val_three]
    show (a.val * 16 + b.val) * 4096 + k.val = r.val * 4096 + k.val
    omega)

/-- THE LAYOUT LAW: the row form of the data laid out as matrices, laid out again as [8, 16, 16384], is the layer. -/
theorem layer_of_rows (x : (⟨3, ![8, 16, 4096]⟩ : Shape).Idx → EReal) (w : (⟨2, ![16384, 4096]⟩ : Shape).Idx → BitVec 32)
    (s z : (⟨0, ![]⟩ : Shape).Idx → EReal) (b : (⟨1, ![16384]⟩ : Shape).Idx → EReal)
    (hx : (⟨3, ![8, 16, 4096]⟩ : Shape).ShapeCasts ⟨2, ![128, 4096]⟩) (hs : (⟨0, ![]⟩ : Shape).ShapeCasts ⟨2, ![1, 1]⟩)
    (hb : (⟨1, ![16384]⟩ : Shape).ShapeCasts ⟨2, ![1, 16384]⟩)
    (ho : (⟨2, ![128, 16384]⟩ : Shape).ShapeCasts ⟨3, ![8, 16, 16384]⟩) :
    shapeCast ⟨3, ![8, 16, 16384]⟩
        (rows (shapeCast ⟨2, ![128, 4096]⟩ x hx) w (shapeCast ⟨2, ![1, 1]⟩ s hs) (shapeCast ⟨2, ![1, 1]⟩ z hs)
          (shapeCast ⟨2, ![1, 16384]⟩ b hb)) ho
      = layer x w s z b := by
  funext i
  obtain ⟨a, c, o, rfl⟩ : ∃ (a : Fin 8) (c : Fin 16) (o : Fin 16384), i = ix3 a c o := ⟨i 0, i 1, i 2, eq_ix3 i⟩
  have hr : 16 * a.val + c.val < 128 := by have := a.isLt; have := c.isLt; omega
  rw [shapeCast_apply _ ho (ix3 a c o) (ix2 (⟨16 * a.val + c.val, hr⟩ : Fin 128) o) (by
    rw [Shape.rowMajor_val_two, Shape.rowMajor_val_three]
    show (16 * a.val + c.val) * 16384 + o.val = (a.val * 16 + c.val) * 16384 + o.val
    omega)]
  show (∑ k : Fin 4096, shapeCast ⟨2, ![128, 4096]⟩ x hx (ix2 (⟨16 * a.val + c.val, hr⟩ : Fin 128) k)
        * deq (w (ix2 o k)) (shapeCast ⟨2, ![1, 1]⟩ z hs (ix2 (0 : Fin 1) (0 : Fin 1))) (shapeCast ⟨2, ![1, 1]⟩ s hs (ix2 (0 : Fin 1) (0 : Fin 1))))
      + shapeCast ⟨2, ![1, 16384]⟩ b hb (ix2 (0 : Fin 1) o)
    = (∑ k : Fin 4096, x (ix3 a c k) * deq (w (ix2 o k)) (z ix0) (s ix0)) + b (ix1 o)
  rw [scalar_as_matrix z hs, scalar_as_matrix s hs, shapeCast_a_1a_apply b hb (0 : Fin 1) o]
  congr 1
  exact Finset.sum_congr rfl fun k _ => by rw [tokens_as_rows x hx a c _ rfl k]

end Cert.QLinear

end
-- ==== Proof.RefSide.lean ====
/-
  The reference computes the layer.  Its program dequantizes the whole weight matrix, `(q − z) · s` entry by entry
  with the zero point and the scale spread over the matrix, contracts the token array with it over the feature axis,
  and adds the bias spread over the tokens.  Read at one entry (a, b, o) that is
  `Σ_k x(a, b, k) · ((q(o, k) − z) · s) + bias(o)`: the layer, term for term.
-/
import proofs.«121195_j44444321579337_1_alg».proof.Proof.Gen.ReferenceIdeal.Read
import proofs.«121195_j44444321579337_1_alg».proof.Proof.Spec

noncomputable section

namespace Cert.QLinear.Reference

open Idealize.ShloMosaic Idealize.ShloMosaic.ValueIdx Cert.ReferenceIdeal Cert.ReferenceIdeal.Read

/-- The token entry the contraction reads at step `k` for the result entry (a, c, o): token (a, c), feature `k`. -/
theorem token_index (a : Fin 8) (c : Fin 16) (o : Fin 16384) (k : Fin 4096) :
    lidx_main_v5 (ix3 a c o) k = ix3 a c k :=
  funext fun d => Fin.ext (by match d with | ⟨0, _⟩ => rfl | ⟨1, _⟩ => rfl | ⟨2, _⟩ => rfl)

/-- The weight entry it reads: row `o`, feature `k`. -/
theorem weight_index (a : Fin 8) (c : Fin 16) (o : Fin 16384) (k : Fin 4096) :
    ridx_main_v5 (ix3 a c o) k = ix2 o k :=
  funext fun d => Fin.ext (by match d with | ⟨0, _⟩ => rfl | ⟨1, _⟩ => rfl)

/-- The bias entry the result entry (a, c, o) reads, through the two spreadings: entry `o`. -/
theorem bias_index (a : Fin 8) (c : Fin 16) (o : Fin 16384) :
    idx_main_v6 (idx_main_v7 (ix3 a c o)) = ix1 o :=
  funext fun d => Fin.ext (by match d with | ⟨0, _⟩ => rfl)

/-- THE REFERENCE IS THE LAYER: its last stage, as a function of the five argument arrays, is `layer` of them
    (argument 2 is the scale, argument 3 the zero point). -/
theorem result_eq (x0 : (⟨S8x16x4096, .f32⟩ : BufTy).Contents (Elt Ideal)) (x1 : (⟨S16384x4096, .i32⟩ : BufTy).Contents (Elt Ideal))
    (x2 x3 : (⟨S_, .f32⟩ : BufTy).Contents (Elt Ideal)) (x4 : (⟨S16384, .f32⟩ : BufTy).Contents (Elt Ideal)) :
    val_main_v8 (F := Ideal) x0 x1 x2 x3 x4 = layer x0 x1 x2 x3 x4 := by
  funext i
  obtain ⟨a, c, o, rfl⟩ : ∃ (a : Fin 8) (c : Fin 16) (o : Fin 16384), i = ix3 a c o := ⟨i 0, i 1, i 2, eq_ix3 i⟩
  rw [val_main_v8_apply, val_main_v5_apply, val_main_v7_apply, val_main_v6_apply, bias_index]
  show (∑ k : Fin 4096, x0 (lidx_main_v5 (ix3 a c o) k) * val_main_v4 (F := Ideal) x1 x2 x3 (ridx_main_v5 (ix3 a c o) k)) + x4 (ix1 o)
    = (∑ k : Fin 4096, x0 (ix3 a c k) * deq (x1 (ix2 o k)) (x3 ix0) (x2 ix0)) + x4 (ix1 o)
  congr 1
  refine Finset.sum_congr rfl fun k _ => ?_
  rw [token_index, weight_index, val_main_v4_apply, val_main_v2_apply, val_main_v0_apply, val_main_v1_apply,
    val_main_v3_apply]
  rfl

end Cert.QLinear.Reference

end
-- ==== Proof.Body.lean ====
/-
  What the kernel body computes at one grid point, read at one entry.  The body loads the 128 token rows (all 4096
  features), a block of 512 weight rows, the scale, the zero point and 512 bias entries; it dequantizes the weight
  block entry by entry, multiplies the token matrix by the transpose of the block on the matrix unit into a zero
  accumulator, and adds the bias row to every token row.  On the extended reals a change of float format is the
  identity and the matrix product into zero is the plain sum over the features, so entry (p, q) of the block it
  stores is  `Σ_k tokens(p, k) · ((q_w(q, k) − z) · s) + bias(0, q)`.
-/
import proofs.«121195_j44444321579337_1_alg».proof.Proof.Gen.KernelIdeal.Skeleton
import proofs.«121195_j44444321579337_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.QLinear.Body

open Idealize.ShloMosaic Idealize.ShloMosaic.ValueIdx Cert.KernelIdeal Cert.KernelIdeal.Gen

/-! ## The matrix product's operand indices: tokens by rows, weights by rows, both contracted over the features -/

theorem lhs_row (j : S128x512.Idx) (u : dot_S128x4096_S512x4096_S128x512_1_1_0_0_n_n.contr.Idx) :
    (dot_S128x4096_S512x4096_S128x512_1_1_0_0_n_n.lhsIdx j u 0).val = (j 0).val := by
  unfold DotDims.lhsIdx
  rw [dif_neg (show ¬(0 : Fin S128x4096.rank) ∈ dot_S128x4096_S512x4096_S128x512_1_1_0_0_n_n.lhsBatch by decide),
    dif_pos (show (0 : Fin S128x4096.rank) ∈ dot_S128x4096_S512x4096_S128x512_1_1_0_0_n_n.lhsNonContracting by decide)]
  rfl

theorem lhs_feature (j : S128x512.Idx) (u : dot_S128x4096_S512x4096_S128x512_1_1_0_0_n_n.contr.Idx) :
    (dot_S128x4096_S512x4096_S128x512_1_1_0_0_n_n.lhsIdx j u 1).val = (u ⟨0, by decide⟩).val :=
  dot_S128x4096_S512x4096_S128x512_1_1_0_0_n_n.lhsIdx_val_of_single rfl j u

theorem rhs_row (j : S128x512.Idx) (u : dot_S128x4096_S512x4096_S128x512_1_1_0_0_n_n.contr.Idx) :
    (dot_S128x4096_S512x4096_S128x512_1_1_0_0_n_n.rhsIdx j u 0).val = (j 1).val := by
  unfold DotDims.rhsIdx
  rw [dif_neg (show ¬(0 : Fin S512x4096.rank) ∈ dot_S128x4096_S512x4096_S128x512_1_1_0_0_n_n.rhsBatch by decide),
    dif_pos (show (0 : Fin S512x4096.rank) ∈ dot_S128x4096_S512x4096_S128x512_1_1_0_0_n_n.rhsNonContracting by decide)]
  rfl

theorem rhs_feature (j : S128x512.Idx) (u : dot_S128x4096_S512x4096_S128x512_1_1_0_0_n_n.contr.Idx) :
    (dot_S128x4096_S512x4096_S128x512_1_1_0_0_n_n.rhsIdx j u 1).val = (u ⟨0, by decide⟩).val :=
  dot_S128x4096_S512x4096_S128x512_1_1_0_0_n_n.rhsIdx_val_of_single rfl j u

/-- The product of a [128, 4096] matrix with the transpose of a [512, 4096] matrix into the zero accumulator, on the
    extended reals: entry (p, q) is the sum over the features of row `p` of the first times row `q` of the second. -/
theorem product_apply (A : FVec Ideal S128x4096 .bf16) (Bm : FVec Ideal S512x4096 .bf16) (p : Fin 128) (q : Fin 512) :
    matmul dot_S128x4096_S512x4096_S128x512_1_1_0_0_n_n none A Bm (constant (F := Ideal) S128x512 .f32 0x00000000#32) (ix2 p q)
      = ∑ k : Fin 4096, A (ix2 p k) * Bm (ix2 q k) := by
  simp only [matmul]
  rw [Ideal.matmul_constant_zero_apply,
    ← Equiv.sum_comp (contrEquiv1 dot_S128x4096_S512x4096_S128x512_1_1_0_0_n_n 4096 rfl rfl).symm]
  refine Finset.sum_congr rfl fun k _ => ?_
  have hk := contrEquiv1_symm_val dot_S128x4096_S512x4096_S128x512_1_1_0_0_n_n 4096 rfl rfl k
  have el : dot_S128x4096_S512x4096_S128x512_1_1_0_0_n_n.lhsIdx (ix2 p q)
      ((contrEquiv1 dot_S128x4096_S512x4096_S128x512_1_1_0_0_n_n 4096 rfl rfl).symm k) = ix2 p k :=
    funext fun a => Fin.ext (by
      match a with
      | ⟨0, _⟩ => exact lhs_row _ _
      | ⟨1, _⟩ => exact (lhs_feature _ _).trans hk)
  have er : dot_S128x4096_S512x4096_S128x512_1_1_0_0_n_n.rhsIdx (ix2 p q)
      ((contrEquiv1 dot_S128x4096_S512x4096_S128x512_1_1_0_0_n_n 4096 rfl rfl).symm k) = ix2 q k :=
    funext fun a => Fin.ext (by
      match a with
      | ⟨0, _⟩ => exact rhs_row _ _
      | ⟨1, _⟩ => exact (rhs_feature _ _).trans hk)
  rw [el, er]

/-- The one entry of a [1, 1] block, as the body extracts it. -/
theorem extract_origin (v : Vec Ideal S1x1 .f32) (h : ∀ a, (![0, 0] : Fin 2 → Nat) a < S1x1.size a) :
    extractAt ![0, 0] v h = v (ix2 (0 : Fin 1) (0 : Fin 1)) :=
  congrArg v (funext fun a => Fin.ext (by match a with | ⟨0, _⟩ => rfl | ⟨1, _⟩ => rfl))

/-- THE BODY'S STORED BLOCK AT ONE ENTRY: from the loaded scale `sc`, zero point `zp`, weight block `wq`, token rows
    `xs` and bias row `bs`, entry (p, q) is the token row `p` against the dequantized weight row `q`, plus bias `q`. -/
theorem payload_apply (sc zp : Vec Ideal S1x1 .f32) (wq : Vec Ideal S512x4096 .i32) (xs : Vec Ideal S128x4096 .f32)
    (bs : Vec Ideal S1x512 .f32) (p : Fin 128) (q : Fin 512) :
    k0_pay1 (F := Ideal) sc zp wq xs bs (ix2 p q)
      = (∑ k : Fin 4096, xs (ix2 p k) * deq (wq (ix2 q k)) (zp (ix2 (0 : Fin 1) (0 : Fin 1))) (sc (ix2 (0 : Fin 1) (0 : Fin 1))))
        + bs (ix2 (0 : Fin 1) q) := by
  unfold k0_pay1
  rw [addf_apply, product_apply, broadcastTo_1b_ab_apply, shapeCast_self, shapeCast_self]
  congr 1
  refine Finset.sum_congr rfl fun k _ => ?_
  show xs (ix2 p k) * (((FloatOps.sitofp (F := Ideal) .f32 (wq (ix2 q k)) : Ideal .f32) - extractAt ![0, 0] zp inpos_S1x1_p0_0) * extractAt ![0, 0] sc inpos_S1x1_p0_0) = _
  rw [extract_origin, extract_origin]
  rfl

/-- THE STORED BLOCK IS A BLOCK OF THE ROW FORM.  Let the loaded blocks be what grid point `tv` finds of five matrices:
    all token rows `X`, weight rows 512·tv … 512·tv + 511 of `W`, the scale `S`, the zero point `Z`, and bias columns
    512·tv … 512·tv + 511 of `B`.  Then entry `y` of the stored block is entry `i` of `rows X W S Z B` whenever `i` is
    `y` moved 512·tv columns to the right. -/
theorem block_of_rows (X : (⟨2, ![128, 4096]⟩ : Shape).Idx → EReal) (W : (⟨2, ![16384, 4096]⟩ : Shape).Idx → BitVec 32)
    (S Z : (⟨2, ![1, 1]⟩ : Shape).Idx → EReal) (B : (⟨2, ![1, 16384]⟩ : Shape).Idx → EReal)
    (sc zp : Vec Ideal S1x1 .f32) (wq : Vec Ideal S512x4096 .i32) (xs : Vec Ideal S128x4096 .f32) (bs : Vec Ideal S1x512 .f32)
    (tv : Nat)
    (hx : ∀ (p : Fin 128) (k : Fin 4096), xs (ix2 p k) = X (ix2 p k))
    (hw : ∀ (q : Fin 512) (k : Fin 4096) (o : Fin 16384), o.val = tv * 512 + q.val → wq (ix2 q k) = W (ix2 o k))
    (hs : sc (ix2 (0 : Fin 1) (0 : Fin 1)) = S (ix2 (0 : Fin 1) (0 : Fin 1)))
    (hz : zp (ix2 (0 : Fin 1) (0 : Fin 1)) = Z (ix2 (0 : Fin 1) (0 : Fin 1)))
    (hb : ∀ (q : Fin 512) (o : Fin 16384), o.val = tv * 512 + q.val → bs (ix2 (0 : Fin 1) q) = B (ix2 (0 : Fin 1) o))
    (y : S128x512.Idx) (i : S128x16384.Idx) (hi0 : (i 0).val = (y 0).val) (hi1 : (i 1).val = tv * 512 + (y 1).val) :
    k0_pay1 (F := Ideal) sc zp wq xs bs y = rows X W S Z B i := by
  obtain ⟨p, q, rfl⟩ : ∃ (p : Fin 128) (q : Fin 512), y = ix2 p q := ⟨y 0, y 1, eq_ix2 y⟩
  obtain ⟨r, o, rfl⟩ : ∃ (r : Fin 128) (o : Fin 16384), i = ix2 r o := ⟨i 0, i 1, eq_ix2 i⟩
  have hrp : r = p := Fin.ext hi0
  have ho : o.val = tv * 512 + q.val := hi1
  subst hrp
  rw [payload_apply]
  show _ = (∑ k : Fin 4096, X (ix2 r k) * deq (W (ix2 o k)) (Z (ix2 (0 : Fin 1) (0 : Fin 1))) (S (ix2 (0 : Fin 1) (0 : Fin 1))))
    + B (ix2 (0 : Fin 1) o)
  rw [hs, hz, hb q o ho]
  congr 1
  exact Finset.sum_congr rfl fun k _ => by rw [hx r k, hw q k o ho]

end Cert.QLinear.Body

end
-- ==== Proof.Region.lean ====
/-
  From blocks to the whole array.  The grid has 32 points; point `t` is handed all 128 token rows, weight rows
  512·t … 512·t + 511, the scale, the zero point and bias columns 512·t … 512·t + 511, and writes back columns
  512·t … 512·t + 511 of the [128, 16384] result.  Each block written back is the matching block of ONE matrix —
  the row form `rows` of the five matrices as the region finds them — and the 32 column blocks tile the result, so
  after the run the result matrix is `rows` of them.
  The matrices the region finds are the argument arrays laid out again by the program's first lines: the tokens as
  [128, 4096], the scale and the zero point as [1, 1], the bias as [1, 16384]; the weights are used as given.
-/
import proofs.«121195_j44444321579337_1_alg».proof.Proof.Gen.KernelIdeal.Frame
import proofs.«121195_j44444321579337_1_alg».proof.Proof.Body
import Idealize.ShloMosaic.Lib.Pipeline.Value
import Idealize.ShloMosaic.Lib.StableHlo.Run

set_option maxRecDepth 16384

noncomputable section

namespace Cert.QLinear.Region

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-! ## The matrices the region finds -/

/-- The tokens, laid out as 128 rows. -/
theorem tokens_found (c : Dev nD) :
    (V m c main_v0 : S128x4096.Idx → EReal)
      = shapeCast S128x4096 (m ((c : Thread nD τ).loc main_arg0)) shapeCasts_S8x16x4096_S128x4096 := by
  show StableHlo.after hostOps0 (fun b => m (c, b)) (Proc.devRef .tc main_v0) = _
  after_results
  rfl

/-- The scale, laid out as a [1, 1] matrix. -/
theorem scale_found (c : Dev nD) :
    (V m c main_v1 : S1x1.Idx → EReal) = shapeCast S1x1 (m ((c : Thread nD τ).loc main_arg2)) shapeCasts_S_S1x1 := by
  show StableHlo.after hostOps0 (fun b => m (c, b)) (Proc.devRef .tc main_v1) = _
  after_results
  rfl

/-- The zero point, laid out as a [1, 1] matrix. -/
theorem zero_point_found (c : Dev nD) :
    (V m c main_v2 : S1x1.Idx → EReal) = shapeCast S1x1 (m ((c : Thread nD τ).loc main_arg3)) shapeCasts_S_S1x1 := by
  show StableHlo.after hostOps0 (fun b => m (c, b)) (Proc.devRef .tc main_v2) = _
  after_results
  rfl

/-- The bias, laid out as one row. -/
theorem bias_found (c : Dev nD) :
    (V m c main_v3 : S1x16384.Idx → EReal)
      = shapeCast S1x16384 (m ((c : Thread nD τ).loc main_arg4)) shapeCasts_S16384_S1x16384 := by
  show StableHlo.after hostOps0 (fun b => m (c, b)) (Proc.devRef .tc main_v3) = _
  after_results
  rfl

/-! ## What each grid point reads and writes -/

theorem zero_offsets : (![0, 0] : Fin 2 → Nat) = fun _ => 0 := funext fun a => by fin_cases a <;> rfl

/-- The block each window hands point `t`, decided over the 32 points: tokens, scale and zero point always their one
    block; weights the `t`-th block of rows; bias and result the `t`-th block of columns. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- WHAT POINT `t` WRITES BACK is block `t` of the row form of the matrices the region finds. -/
theorem flushed_eq (c : Dev nD) (t : Fin cfg0.N) :
    (dats m 0 c).flushed 5 t = ((cfg0.win 5).blk t).view.read (Elt Ideal)
      (rows (V m c main_v0) (V m c main_arg1) (V m c main_v1) (V m c main_v2) (V m c main_v3)) := by
  show (cfg0.win 5).cut (grid0.coords t) ((dats m 0 c).after 5 t) = _
  rw [after0_5]
  unfold out0_5
  rw [View.canon_unit_zero zero_offsets]
  simp only [View.ld_unit_zero (S := S1x1) zero_offsets, View.ld_unit_zero (S := S512x4096) zero_offsets,
    View.ld_unit_zero (S := S128x4096) zero_offsets, View.ld_unit_zero (S := S1x512) zero_offsets]
  obtain ⟨a0, a1, w0, w1, s0, s1, z0, z1, b0, b1, o0, o1⟩ := block_indices t
  funext j
  refine Body.block_of_rows (V m c main_v0) (V m c main_arg1) (V m c main_v1) (V m c main_v2) (V m c main_v3)
    (iblk m c 2 t) (iblk m c 3 t) (iblk m c 1 t) (iblk m c 0 t) (iblk m c 4 t) t.val ?_ ?_ ?_ ?_ ?_
    ((cfg0.win 5).xinj (grid0.coords t) j) (((cfg0.win 5).blk t).view.emb j) ?_ ?_
  · intro p k
    show V m c main_v0 (((cfg0.win 0).blk t).view.emb (ix2 p k)) = V m c main_v0 (ix2 p k)
    refine congrArg _ (funext fun a => Fin.ext ?_)
    match a with
    | ⟨0, _⟩ => show win0_0.index t (0 : Fin 2) * 128 + 1 * p.val = p.val; omega
    | ⟨1, _⟩ => show win0_0.index t (1 : Fin 2) * 4096 + 1 * k.val = k.val; omega
  · intro q k o ho
    show V m c main_arg1 (((cfg0.win 1).blk t).view.emb (ix2 q k)) = V m c main_arg1 (ix2 o k)
    refine congrArg _ (funext fun a => Fin.ext ?_)
    match a with
    | ⟨0, _⟩ => show win0_1.index t (0 : Fin 2) * 512 + 1 * q.val = o.val; omega
    | ⟨1, _⟩ => show win0_1.index t (1 : Fin 2) * 4096 + 1 * k.val = k.val; omega
  · show V m c main_v1 (((cfg0.win 2).blk t).view.emb (ix2 (0 : Fin 1) (0 : Fin 1))) = V m c main_v1 (ix2 (0 : Fin 1) (0 : Fin 1))
    refine congrArg _ (funext fun a => Fin.ext ?_)
    match a with
    | ⟨0, _⟩ => show win0_2.index t (0 : Fin 2) * 1 + 1 * 0 = 0; omega
    | ⟨1, _⟩ => show win0_2.index t (1 : Fin 2) * 1 + 1 * 0 = 0; omega
  · show V m c main_v2 (((cfg0.win 3).blk t).view.emb (ix2 (0 : Fin 1) (0 : Fin 1))) = V m c main_v2 (ix2 (0 : Fin 1) (0 : Fin 1))
    refine congrArg _ (funext fun a => Fin.ext ?_)
    match a with
    | ⟨0, _⟩ => show win0_3.index t (0 : Fin 2) * 1 + 1 * 0 = 0; omega
    | ⟨1, _⟩ => show win0_3.index t (1 : Fin 2) * 1 + 1 * 0 = 0; omega
  · intro q o ho
    show V m c main_v3 (((cfg0.win 4).blk t).view.emb (ix2 (0 : Fin 1) q)) = V m c main_v3 (ix2 (0 : Fin 1) o)
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * q.val = o.val; omega
  · show win0_5.index t (0 : Fin 2) * 128 + 1 * (j 0).val = (j 0).val; omega
  · show win0_5.index t (1 : Fin 2) * 512 + 1 * (j 1).val = t.val * 512 + (j 1).val; omega

/-! ## The 32 column blocks tile the result -/

/-- An entry of the result matrix is in point `t`'s block iff each coordinate is in the block's range on its axis. -/
theorem mem_blk (t : Fin cfg0.N) (i : S128x16384.Idx) :
    i ∈ ((cfg0.win 5).blk t).view.set ↔ ∀ a : Fin 2, win0_5.index t a * S128x512.size a ≤ (i a).val
      ∧ (i a).val < win0_5.index t a * S128x512.size a + S128x512.size a := by
  show i ∈ ((View.whole main_v4).slice (win0_5.rect t)).set ↔ _
  rw [View.set_slice_whole, Rect.mem_set_unit]
  exact Iff.rfl

/-- Every entry (r, o) of the result is written back by the point o / 512. -/
theorem covered (i : S128x16384.Idx) :
    ∃ t : Fin cfg0.N, (cfg0.win 5).flush t = true ∧ i ∈ ((cfg0.win 5).blk t).view.set := by
  have hi0 : (i 0).val < 128 := (i 0).isLt
  have hi1 : (i 1).val < 16384 := (i 1).isLt
  have ht : (i 1).val / 512 < grid0.N := lt_of_lt_of_eq (by omega : (i 1).val / 512 < 32) N_0.symm
  obtain ⟨t, htv⟩ : ∃ t : Fin cfg0.N, t.val = (i 1).val / 512 := ⟨⟨(i 1).val / 512, ht⟩, rfl⟩
  obtain ⟨-, -, -, -, -, -, -, -, -, -, o0, o1⟩ := block_indices t
  refine ⟨t, flush0_5 t, ?_⟩
  rw [mem_blk]
  intro a
  match a with
  | ⟨0, _⟩ =>
    show win0_5.index t (0 : Fin 2) * 128 ≤ (i 0).val ∧ (i 0).val < win0_5.index t (0 : Fin 2) * 128 + 128
    omega
  | ⟨1, _⟩ =>
    show win0_5.index t (1 : Fin 2) * 512 ≤ (i 1).val ∧ (i 1).val < win0_5.index t (1 : Fin 2) * 512 + 512
    omega

/-- THE RESULT MATRIX after the run is the row form of the matrices the region finds. -/
theorem result_found (c : Dev nD) :
    (dats m 0 c).arrAt 5 cfg0.N
      = rows (V m c main_v0) (V m c main_arg1) (V m c main_v1) (V m c main_v2) (V m c main_v3) :=
  (dats m 0 c).arrAt_eq_of_cover 5 _ (fun t _ => flushed_eq m c t) covered

end Cert.QLinear.Region

end
-- ==== Proof.KernelRun.lean ====
/-
  The kernel program's run, with its result named.  The program lays the arguments out as matrices, runs the grid —
  after which the [128, 16384] result matrix is the row form of those matrices —, and lays that matrix out again as
  [8, 16, 16384].  By the layout law this last array is the layer of the argument arrays as given.
-/
import proofs.«121195_j44444321579337_1_alg».proof.Proof.Region

set_option maxRecDepth 16384

noncomputable section

namespace Cert.QLinear.KernelRun

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- What the program's last line leaves in the result array: the result matrix of the grid laid out again. -/
theorem tail_result (c : Dev nD) :
    Pipeline.afterTail₀ cfgs (dats m) 0 (V0 m) [hostOps1] c main_v5
      = shapeCast S8x16x16384
          (rows (V m c main_v0) (V m c main_arg1) (V m c main_v1) (V m c main_v2) (V m c main_v3))
          shapeCasts_S128x16384_S8x16x16384 := by
  have e := (Pipeline.withArrays_arr spec0 launch0.win.arr_inj c (V0 m c) (fun w => (dats m 0 c).arrAt w cfg0.N) 5).trans
    (Region.result_found m c)
  unfold Pipeline.afterTail₀
  show StableHlo.after hostOps1 _ (Proc.devRef .tc main_v5) = _
  after_results
  exact congrArg (fun X => shapeCast S8x16x16384 X shapeCasts_S128x16384_S8x16x16384) e

/-- THE RESULT ARRAY IS THE LAYER of the argument arrays. -/
theorem result_eq (c : Dev nD) :
    Pipeline.afterTail₀ cfgs (dats m) 0 (V0 m) [hostOps1] c main_v5
      = layer (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_result, Region.tokens_found, V_main_arg1, Region.scale_found, Region.zero_point_found, Region.bias_found]
  exact layer_of_rows _ _ _ _ _ _ _ _ _

/-- THE RUN: every weakly fair execution of the kernel program terminates, nothing faulting, with the result array at
    the layer of the argument arrays and the argument arrays as they were. -/
theorem run : θ_run defs (onTc (τ := τ) (main (F := Ideal))) ⟨m, fun _ => 0, ρ⟩ (fun r => ∀ c : Dev nD,
      r.2.mem ((c.tc : Thread nD τ).loc main_v5)
        = layer (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.QLinear.KernelRun

end
-- ==== Proof.lean ====
/-
  A linear layer over integer-stored weights, computed two ways, is one function on the extended reals.

  The data: tokens `x` [8, 16, 4096], weights `q` stored as 32-bit integers [16384, 4096], a scale `s` and a zero point
  `z` (rank 0), a bias `b` [16384].  A stored weight stands for the real `(q − z) · s`.  The layer's entry (a, c, o) is
      Σ_k x(a, c, k) · ((q(o, k) − z) · s) + b(o).
  The reference dequantizes the whole matrix, contracts the tokens with it and adds the bias.  The kernel lays the 128
  tokens out as the rows of a matrix and walks the 16384 outputs in 32 blocks of 512 columns: at each block it
  dequantizes 512 weight rows, multiplies the token matrix by their transpose on the matrix unit in a narrower float
  format into a zero accumulator, adds 512 bias entries to every row and writes the block back; the result matrix is
  then laid out as [8, 16, 16384].  On the extended reals a change of float format is the identity and the matrix
  product into zero is the plain sum over the features, so each block written is the matching block of one matrix, the
  blocks tile it, and re-laying arrays out keeps every entry (token (a, c) is row 16·a + c): both programs end at the
  layer above, the same sum of the same products entry by entry.  No law that fails at the infinities is used, so the
  finiteness of the inputs is never opened.

  The modules: Spec (the layer, its matrix form, the layout law), RefSide (the reference is the layer), Body (the
  block a grid point stores, entry by entry), Region (each block written back is a block of the matrix form; the blocks
  tile the result), KernelRun (the kernel program's run ends at the layer).  The three runs' termination and the
  arguments' preservation are the generated frames and the generated reference run; the idealization rewrote nothing.
-/
import proofs.«121195_j44444321579337_1_alg».proof.Defs
import proofs.«121195_j44444321579337_1_alg».proof.Proof.Gen.Kernel
import proofs.«121195_j44444321579337_1_alg».proof.Proof.Gen.Kernel.Skeleton
import proofs.«121195_j44444321579337_1_alg».proof.Proof.Gen.Kernel.Launch
import proofs.«121195_j44444321579337_1_alg».proof.Proof.Gen.Kernel.Points
import proofs.«121195_j44444321579337_1_alg».proof.Proof.Gen.Kernel.Frame
import proofs.«121195_j44444321579337_1_alg».proof.Proof.Gen.KernelIdeal
import proofs.«121195_j44444321579337_1_alg».proof.Proof.Gen.KernelIdeal.Skeleton
import proofs.«121195_j44444321579337_1_alg».proof.Proof.Gen.KernelIdeal.Launch
import proofs.«121195_j44444321579337_1_alg».proof.Proof.Gen.KernelIdeal.Points
import proofs.«121195_j44444321579337_1_alg».proof.Proof.Gen.KernelIdeal.Frame
import proofs.«121195_j44444321579337_1_alg».proof.Proof.Gen.ReferenceIdeal
import proofs.«121195_j44444321579337_1_alg».proof.Proof.Gen.Pre_finite_inputs
import proofs.«121195_j44444321579337_1_alg».proof.Proof.Gen.ReferenceIdeal.Run
import proofs.«121195_j44444321579337_1_alg».proof.Proof.Gen.ReferenceIdeal.Read
import proofs.«121195_j44444321579337_1_alg».proof.Proof.RefSide
import proofs.«121195_j44444321579337_1_alg».proof.Proof.KernelRun
import Idealize.ShloMosaic.Adequacy
import Idealize.ShloMosaic.Init

noncomputable section

namespace Cert.Proof

open Idealize.ShloMosaic Idealize.ShloMosaic.TcCoe Idealize.SL.Sem

/-- The kernel program as printed terminates, nothing faulting, with its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on the five arguments, end with the layer of those arguments in their
    result arrays: the kernel's run ends there (KernelRun), the reference's last stage is the layer (RefSide), and the
    agreement carries the reference's arguments over to the kernel's. -/
theorem algebraic : Cert.algebraic_KernelIdeal_ReferenceIdeal := by
  intro m ρ m' ρ' _ hagree
  refine ⟨_, Cert.QLinear.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.QLinear.Reference.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
